-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x128 : Shape := ⟨2, ![2000000, 128]⟩
abbrev S2000000x3 : Shape := ⟨2, ![2000000, 3]⟩
abbrev S128x128 : Shape := ⟨2, ![128, 128]⟩
abbrev S128x1 : Shape := ⟨2, ![128, 1]⟩
abbrev S100 : Shape := ⟨1, ![100]⟩
abbrev S2000000 : Shape := ⟨1, ![2000000]⟩
abbrev S_ : Shape := ⟨0, ![]⟩

class Facts : Prop where
  bcast_S_S2000000x128 : S_.BroadcastsInDim S2000000x128 (![] : Fin 0 → Fin S2000000x128.rank)
  reducesTo_S2000000x128_S_d0_1 : S2000000x128.ReducesTo [0, 1] S_
  h_S_ : 0 < S_.numel
  bcast_S_S2000000x3 : S_.BroadcastsInDim S2000000x3 (![] : Fin 0 → Fin S2000000x3.rank)
  reducesTo_S2000000x3_S_d0_1 : S2000000x3.ReducesTo [0, 1] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S100 : S_.BroadcastsInDim S100 (![] : Fin 0 → Fin S100.rank)
  reducesTo_S100_S_d0 : S100.ReducesTo [0] S_

variable [Facts]

def fn_part1 {F : FTy → Type} [FloatOps F] (main_arg4 : FVec F S100 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S100 .f32 := Host.absf main_arg4
  let main_cst_6 : FVec F S_ .f32 := constant S_ .f32 0x7F800000#32
  let main_v20 : FVec F S100 .f32 := broadcastInDim S100 ![] bcast_S_S100 main_cst_6
  let main_v21 : IVec S100 1 := cmpf .olt main_v19 main_v20
  let main_c_7 : IVec S_ 1 := constantI S_ 1 1#1
  let main_v22 : IVec S_ 1 := (fun x v => Host.reduce IntOp.andi x v reducesTo_S100_S_d0 h_S_) main_v21 main_c_7
  let main_v23 : IVec S_ 1 := andi main_v18 main_v22
  main_v23

def fn {F : FTy → Type} [FloatOps F] (main_arg0 : FVec F S2000000x128 .f32) (main_arg1 : FVec F S2000000x3 .f32) (main_arg2 : FVec F S128x128 .f32) (main_arg3 : FVec F S128x1 .f32) (main_arg4 : FVec F S100 .f32) (main_arg5 : IVec S2000000 32) (main_arg6 : IVec S2000000 32) : IVec S_ 1 :=
  let main_v0 : FVec F S2000000x128 .f32 := Host.absf main_arg0
  let main_cst : FVec F S_ .f32 := constant S_ .f32 0x7F800000#32
  let main_v1 : FVec F S2000000x128 .f32 := broadcastInDim S2000000x128 ![] bcast_S_S2000000x128 main_cst
  let main_v2 : IVec S2000000x128 1 := cmpf .olt main_v0 main_v1
  let main_c : IVec S_ 1 := constantI S_ 1 1#1
  let main_v3 : IVec S_ 1 := (fun x v => Host.reduce IntOp.andi x v reducesTo_S2000000x128_S_d0_1 h_S_) main_v2 main_c
  let main_v4 : FVec F S2000000x3 .f32 := Host.absf main_arg1
  let main_cst_0 : FVec F S_ .f32 := constant S_ .f32 0x7F800000#32
  let main_v5 : FVec F S2000000x3 .f32 := broadcastInDim S2000000x3 ![] bcast_S_S2000000x3 main_cst_0
  let main_v6 : IVec S2000000x3 1 := cmpf .olt main_v4 main_v5
  let main_c_1 : IVec S_ 1 := constantI S_ 1 1#1
  let main_v7 : IVec S_ 1 := (fun x v => Host.reduce IntOp.andi x v reducesTo_S2000000x3_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x1 .f32 := Host.absf main_arg3
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg4 main_v13 main_v16
-- ==== Kernel.lean ====
abbrev S2000000x128 : Shape := ⟨2, ![2000000, 128]⟩
abbrev S2000000x3 : Shape := ⟨2, ![2000000, 3]⟩
abbrev S128x128 : Shape := ⟨2, ![128, 128]⟩
abbrev S128x1 : Shape := ⟨2, ![128, 1]⟩
abbrev S100 : Shape := ⟨1, ![100]⟩
abbrev S2000000 : Shape := ⟨1, ![2000000]⟩
abbrev S2000000x1 : Shape := ⟨2, ![2000000, 1]⟩
abbrev S16000x128 : Shape := ⟨2, ![16000, 128]⟩
abbrev S16000x1 : Shape := ⟨2, ![16000, 1]⟩
abbrev S_ : Shape := ⟨0, ![]⟩
abbrev S2048x3 : Shape := ⟨2, ![2048, 3]⟩
abbrev S2048 : Shape := ⟨1, ![2048]⟩
abbrev S2048x1 : Shape := ⟨2, ![2048, 1]⟩

abbrev nBuf : Space → Nat
  | .hbm => 51
  | .vmem => 6
  | .smem => 0
  | _ => 0

abbrev bufTy : (tb : Table) → Fin (tcTables nBuf tb) → BufTy
  | .hbm, ⟨0, _⟩ => ⟨S2000000x128, .f32⟩
  | .hbm, ⟨1, _⟩ => ⟨S2000000x3, .f32⟩
  | .hbm, ⟨2, _⟩ => ⟨S128x128, .f32⟩
  | .hbm, ⟨3, _⟩ => ⟨S128x1, .f32⟩
  | .hbm, ⟨4, _⟩ => ⟨S100, .f32⟩
  | .hbm, ⟨5, _⟩ => ⟨S2000000, .i32⟩
  | .hbm, ⟨6, _⟩ => ⟨S2000000, .i32⟩
  | .hbm, ⟨7, _⟩ => ⟨S2000000x1, .f32⟩
  | .hbm, ⟨8, _⟩ => ⟨S_, .i32⟩
  | .hbm, ⟨9, _⟩ => ⟨S2000000, .i32⟩
  | .hbm, ⟨10, _⟩ => ⟨S2000000, .i1⟩
  | .hbm, ⟨11, _⟩ => ⟨S_, .i32⟩
  | .hbm, ⟨12, _⟩ => ⟨S2000000, .i32⟩
  | .hbm, ⟨13, _⟩ => ⟨S2000000, .i32⟩
  | .hbm, ⟨14, _⟩ => ⟨S2000000, .i32⟩
  | .hbm, ⟨15, _⟩ => ⟨S2000000x1, .i32⟩
  | .hbm, ⟨16, _⟩ => ⟨S2000000, .f32⟩
  | .hbm, ⟨17, _⟩ => ⟨S2000000x1, .f32⟩
  | .hbm, ⟨18, _⟩ => ⟨S2000000x3, .f32⟩
  | .hbm, ⟨19, _⟩ => ⟨S2000000x3, .f32⟩
  | .hbm, ⟨20, _⟩ => ⟨S_, .f32⟩
  | .hbm, ⟨21, _⟩ => ⟨S2048x3, .f32⟩
  | .hbm, ⟨22, _⟩ => ⟨S2000000x1, .i32⟩
  | .hbm, ⟨23, _⟩ => ⟨S2048x3, .f32⟩
  | .hbm, ⟨24, _⟩ => ⟨S_, .f32⟩
  | .hbm, ⟨25, _⟩ => ⟨S2048, .f32⟩
  | .hbm, ⟨26, _⟩ => ⟨S2000000x1, .i32⟩
  | .hbm, ⟨27, _⟩ => ⟨S2048, .f32⟩
  | .hbm, ⟨28, _⟩ => ⟨S2048x1, .f32⟩
  | .hbm, ⟨29, _⟩ => ⟨S2048x3, .f32⟩
  | .hbm, ⟨30, _⟩ => ⟨S2048x3, .f32⟩
  | .hbm, ⟨31, _⟩ => ⟨S_, .i32⟩
  | .hbm, ⟨32, _⟩ => ⟨S2000000, .i32⟩
  | .hbm, ⟨33, _⟩ => ⟨S2000000, .i1⟩
  | .hbm, ⟨34, _⟩ => ⟨S_, .i32⟩
  | .hbm, ⟨35, _⟩ => ⟨S2000000, .i32⟩
  | .hbm, ⟨36, _⟩ => ⟨S2000000, .i32⟩
  | .hbm, ⟨37, _⟩ => ⟨S2000000, .i32⟩
  | .hbm, ⟨38, _⟩ => ⟨S2000000x1, .i32⟩
  | .hbm, ⟨39, _⟩ => ⟨S2000000x3, .f32⟩
  | .hbm, ⟨40, _⟩ => ⟨S2000000x3, .f32⟩
  | .hbm, ⟨41, _⟩ => ⟨S2000000x3, .f32⟩
  | .hbm, ⟨42, _⟩ => ⟨S_, .f32⟩
  | .hbm, ⟨43, _⟩ => ⟨S2000000, .f32⟩
  | .hbm, ⟨44, _⟩ => ⟨S2000000x1, .f32⟩
  | .hbm, ⟨45, _⟩ => ⟨S2000000x1, .f32⟩
  | .hbm, ⟨46, _⟩ => ⟨S_, .f32⟩
  | .hbm, ⟨47, _⟩ => ⟨S2048x1, .f32⟩
  | .hbm, ⟨48, _⟩ => ⟨S2000000x1, .i32⟩
  | .hbm, ⟨49, _⟩ => ⟨S2048x1, .f32⟩
  | .hbm, ⟨50, _⟩ => ⟨S2048, .f32⟩
  | .local _ .vmem, ⟨0, _⟩ => ⟨S16000x128, .f32⟩
  | .local _ .vmem, ⟨1, _⟩ => ⟨S16000x128, .f32⟩
  | .local _ .vmem, ⟨2, _⟩ => ⟨S128x128, .f32⟩
  | .local _ .vmem, ⟨3, _⟩ => ⟨S128x1, .f32⟩
  | .local _ .vmem, ⟨4, _⟩ => ⟨S16000x1, .f32⟩
  | .local _ .vmem, ⟨5, _⟩ => ⟨S16000x1, .f32⟩
  | _, _ => ⟨S2000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S16000x128_S16000x128_0_0 : ∀ a, (![0, 0] : Fin 2 → Nat) a + S16000x128.size a ≤ S16000x128.size a
  h_S16000x128 : 0 < S16000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128x1_S128x1_0_0 : ∀ a, (![0, 0] : Fin 2 → Nat) a + S128x1.size a ≤ S128x1.size a
  h_S128x1 : 0 < S128x1.numel
  inb_S16000x1_S16000x1_0_0 : ∀ a, (![0, 0] : Fin 2 → Nat) a + S16000x1.size a ≤ S16000x1.size a
  h_S16000x1 : 0 < S16000x1.numel
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S2000000x1_S2000000x3_0_1 : S2000000x1.BroadcastsInDim S2000000x3 (![0, 1] : Fin 2 → Fin S2000000x3.rank)
  bcast_S_S2048x3 : S_.BroadcastsInDim S2048x3 (![] : Fin 0 → Fin S2048x3.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x3_0_1 : S2048x1.BroadcastsInDim S2048x3 (![0, 1] : Fin 2 → Fin S2048x3.rank)
  reducesTo_S2000000x3_S2000000_d1 : S2000000x3.ReducesTo [1] S2000000
  h_S_ : 0 < S_.numel
  bcast_S_S2048x1 : S_.BroadcastsInDim S2048x1 (![] : Fin 0 → Fin S2048x1.rank)
  shapeCasts_S2048x1_S2048 : S2048x1.ShapeCasts S2048
  dot_S16000x128_S128x128_S16000x128_1_0_0_1_n_n_wf : DotDims.WF S16000x128 S128x128 S16000x128 [1] [0] [0] [1] [] []
  dot_S16000x128_S128x1_S16000x1_1_0_0_1_n_n_wf : DotDims.WF S16000x128 S128x1 S16000x1 [1] [0] [0] [1] [] []
  gather_S100_S2000000x1_S2000000_n_0_n_n_0_1_1_wf : GatherDims.WF S100 S2000000x1 S2000000 [] [0] [] [0] [] 1 ![1]
  scatter_S2048x3_S2000000x1_S2000000x3_1_0_0_1_wf : ScatterDims.WF S2048x3 S2000000x1 S2000000x3 [1] [0] [0] 1
  scatter_S2048_S2000000x1_S2000000_n_0_0_1_wf : ScatterDims.WF S2048 S2000000x1 S2000000 [] [0] [0] 1
  gather_S2048x3_S2000000x1_S2000000x3_1_0_n_n_0_1_13_wf : GatherDims.WF S2048x3 S2000000x1 S2000000x3 [1] [0] [] [0] [] 1 ![1, 3]
  scatter_S2048x1_S2000000x1_S2000000x1_1_0_0_1_wf : ScatterDims.WF S2048x1 S2000000x1 S2000000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x128.size a ≤ S2000000x128.size a
  hwx0_0 : ∀ i : grid0.Coords, EltTy.bits .f32 = 32 ∨ (Rect.block (s := S2000000x128) S16000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .f32 = 32 ∨ (Rect.block (s := S128x1) S128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16000x1.size a ≤ S2000000x1.size a
  hwx0_3 : ∀ i : grid0.Coords, EltTy.bits .f32 = 32 ∨ (Rect.block (s := S2000000x1) S16000x1.size (cc0_transform_3 i) (hinb0_3 i)).WholeWords (EltTy.packing .f32)

variable [Facts₀]

def dot_S16000x128_S128x128_S16000x128_1_0_0_1_n_n : DotDims S16000x128 S128x128 S16000x128 where
  lhsContracting := [1]
  rhsContracting := [0]
  lhsNonContracting := [0]
  rhsNonContracting := [1]
  lhsBatch := []
  rhsBatch := []
  wf := dot_S16000x128_S128x128_S16000x128_1_0_0_1_n_n_wf
def dot_S16000x128_S128x1_S16000x1_1_0_0_1_n_n : DotDims S16000x128 S128x1 S16000x1 where
  lhsContracting := [1]
  rhsContracting := [0]
  lhsNonContracting := [0]
  rhsNonContracting := [1]
  lhsBatch := []
  rhsBatch := []
  wf := dot_S16000x128_S128x1_S16000x1_1_0_0_1_n_n_wf
def gather_S100_S2000000x1_S2000000_n_0_n_n_0_1_1 : GatherDims S100 S2000000x1 S2000000 where
  offsetDims := []
  collapsedSliceDims := [0]
  operandBatchingDims := []
  startIndicesBatchingDims := []
  startIndexMap := [0]
  indexVectorDim := 1
  sliceSizes := ![1]
  wf := gather_S100_S2000000x1_S2000000_n_0_n_n_0_1_1_wf
def scatter_S2048x3_S2000000x1_S2000000x3_1_0_0_1 : ScatterDims S2048x3 S2000000x1 S2000000x3 where
  updateWindowDims := [1]
  insertedWindowDims := [0]
  scatterDimsToOperandDims := [0]
  indexVectorDim := 1
  wf := scatter_S2048x3_S2000000x1_S2000000x3_1_0_0_1_wf
def scatter_S2048_S2000000x1_S2000000_n_0_0_1 : ScatterDims S2048 S2000000x1 S2000000 where
  updateWindowDims := []
  insertedWindowDims := [0]
  scatterDimsToOperandDims := [0]
  indexVectorDim := 1
  wf := scatter_S2048_S2000000x1_S2000000_n_0_0_1_wf
def gather_S2048x3_S2000000x1_S2000000x3_1_0_n_n_0_1_13 : GatherDims S2048x3 S2000000x1 S2000000x3 where
  offsetDims := [1]
  collapsedSliceDims := [0]
  operandBatchingDims := []
  startIndicesBatchingDims := []
  startIndexMap := [0]
  indexVectorDim := 1
  sliceSizes := ![1, 3]
  wf := gather_S2048x3_S2000000x1_S2000000x3_1_0_n_n_0_1_13_wf
def scatter_S2048x1_S2000000x1_S2000000x1_1_0_0_1 : ScatterDims S2048x1 S2000000x1 S2000000x1 where
  updateWindowDims := [1]
  insertedWindowDims := [0]
  scatterDimsToOperandDims := [0]
  indexVectorDim := 1
  wf := scatter_S2048x1_S2000000x1_S2000000x1_1_0_0_1_wf

abbrev win0_0 : Pipeline.Window sig grid0 :=
  Pipeline.Window.ofSpec (Memref.whole main_arg0) S16000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S16000x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2000000x128 : Shape := ⟨2, ![2000000, 128]⟩
abbrev S2000000x3 : Shape := ⟨2, ![2000000, 3]⟩
abbrev S128x128 : Shape := ⟨2, ![128, 128]⟩
abbrev S128x1 : Shape := ⟨2, ![128, 1]⟩
abbrev S100 : Shape := ⟨1, ![100]⟩
abbrev S2000000 : Shape := ⟨1, ![2000000]⟩
abbrev S_ : Shape := ⟨0, ![]⟩
abbrev S2000000x1 : Shape := ⟨2, ![2000000, 1]⟩
abbrev S2048x3 : Shape := ⟨2, ![2048, 3]⟩
abbrev S2048 : Shape := ⟨1, ![2048]⟩
abbrev S2048x1 : Shape := ⟨2, ![2048, 1]⟩

abbrev nBuf : Space → Nat
  | .hbm => 61
  | .vmem => 0
  | .smem => 0
  | _ => 0

abbrev bufTy : (tb : Table) → Fin (tcTables nBuf tb) → BufTy
  | .hbm, ⟨0, _⟩ => ⟨S2000000x128, .f32⟩
  | .hbm, ⟨1, _⟩ => ⟨S2000000x3, .f32⟩
  | .hbm, ⟨2, _⟩ => ⟨S128x128, .f32⟩
  | .hbm, ⟨3, _⟩ => ⟨S128x1, .f32⟩
  | .hbm, ⟨4, _⟩ => ⟨S100, .f32⟩
  | .hbm, ⟨5, _⟩ => ⟨S2000000, .i32⟩
  | .hbm, ⟨6, _⟩ => ⟨S2000000, .i32⟩
  | .hbm, ⟨7, _⟩ => ⟨S2000000x128, .f32⟩
  | .hbm, ⟨8, _⟩ => ⟨S2000000x128, .f32⟩
  | .hbm, ⟨9, _⟩ => ⟨S2000000x128, .f32⟩
  | .hbm, ⟨10, _⟩ => ⟨S_, .f32⟩
  | .hbm, ⟨11, _⟩ => ⟨S2000000x128, .f32⟩
  | .hbm, ⟨12, _⟩ => ⟨S2000000x128, .f32⟩
  | .hbm, ⟨13, _⟩ => ⟨S_, .f32⟩
  | .hbm, ⟨14, _⟩ => ⟨S2000000x128, .f32⟩
  | .hbm, ⟨15, _⟩ => ⟨S2000000x128, .f32⟩
  | .hbm, ⟨16, _⟩ => ⟨S2000000x128, .f32⟩
  | .hbm, ⟨17, _⟩ => ⟨S2000000x1, .f32⟩
  | .hbm, ⟨18, _⟩ => ⟨S_, .i32⟩
  | .hbm, ⟨19, _⟩ => ⟨S2000000, .i32⟩
  | .hbm, ⟨20, _⟩ => ⟨S2000000, .i1⟩
  | .hbm, ⟨21, _⟩ => ⟨S_, .i32⟩
  | .hbm, ⟨22, _⟩ => ⟨S2000000, .i32⟩
  | .hbm, ⟨23, _⟩ => ⟨S2000000, .i32⟩
  | .hbm, ⟨24, _⟩ => ⟨S2000000, .i32⟩
  | .hbm, ⟨25, _⟩ => ⟨S2000000x1, .i32⟩
  | .hbm, ⟨26, _⟩ => ⟨S2000000, .f32⟩
  | .hbm, ⟨27, _⟩ => ⟨S2000000x1, .f32⟩
  | .hbm, ⟨28, _⟩ => ⟨S2000000x3, .f32⟩
  | .hbm, ⟨29, _⟩ => ⟨S2000000x3, .f32⟩
  | .hbm, ⟨30, _⟩ => ⟨S_, .f32⟩
  | .hbm, ⟨31, _⟩ => ⟨S2048x3, .f32⟩
  | .hbm, ⟨32, _⟩ => ⟨S2000000x1, .i32⟩
  | .hbm, ⟨33, _⟩ => ⟨S2048x3, .f32⟩
  | .hbm, ⟨34, _⟩ => ⟨S_, .f32⟩
  | .hbm, ⟨35, _⟩ => ⟨S2048, .f32⟩
  | .hbm, ⟨36, _⟩ => ⟨S2000000x1, .i32⟩
  | .hbm, ⟨37, _⟩ => ⟨S2048, .f32⟩
  | .hbm, ⟨38, _⟩ => ⟨S2048x1, .f32⟩
  | .hbm, ⟨39, _⟩ => ⟨S2048x3, .f32⟩
  | .hbm, ⟨40, _⟩ => ⟨S2048x3, .f32⟩
  | .hbm, ⟨41, _⟩ => ⟨S_, .i32⟩
  | .hbm, ⟨42, _⟩ => ⟨S2000000, .i32⟩
  | .hbm, ⟨43, _⟩ => ⟨S2000000, .i1⟩
  | .hbm, ⟨44, _⟩ => ⟨S_, .i32⟩
  | .hbm, ⟨45, _⟩ => ⟨S2000000, .i32⟩
  | .hbm, ⟨46, _⟩ => ⟨S2000000, .i32⟩
  | .hbm, ⟨47, _⟩ => ⟨S2000000, .i32⟩
  | .hbm, ⟨48, _⟩ => ⟨S2000000x1, .i32⟩
  | .hbm, ⟨49, _⟩ => ⟨S2000000x3, .f32⟩
  | .hbm, ⟨50, _⟩ => ⟨S2000000x3, .f32⟩
  | .hbm, ⟨51, _⟩ => ⟨S2000000x3, .f32⟩
  | .hbm, ⟨52, _⟩ => ⟨S_, .f32⟩
  | .hbm, ⟨53, _⟩ => ⟨S2000000, .f32⟩
  | .hbm, ⟨54, _⟩ => ⟨S2000000x1, .f32⟩
  | .hbm, ⟨55, _⟩ => ⟨S2000000x1, .f32⟩
  | .hbm, ⟨56, _⟩ => ⟨S_, .f32⟩
  | .hbm, ⟨57, _⟩ => ⟨S2048x1, .f32⟩
  | .hbm, ⟨58, _⟩ => ⟨S2000000x1, .i32⟩
  | .hbm, ⟨59, _⟩ => ⟨S2048x1, .f32⟩
  | .hbm, ⟨60, _⟩ => ⟨S2048, .f32⟩
  | _, _ => ⟨S2000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v1 : Ref sig .tc := ⟨.hbm, 16, rfl⟩
abbrev main_v2 : Ref sig .tc := ⟨.hbm, 17, rfl⟩
abbrev main_c : Ref sig .tc := ⟨.hbm, 18, rfl⟩
abbrev main_v3 : Ref sig .tc := ⟨.hbm, 19, rfl⟩
abbrev main_v4 : Ref sig .tc := ⟨.hbm, 20, rfl⟩
abbrev main_c_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_1 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_2 : Ref sig .tc := ⟨.hbm, 41, rfl⟩
abbrev main_v22 : Ref sig .tc := ⟨.hbm, 42, rfl⟩
abbrev main_v23 : Ref sig .tc := ⟨.hbm, 43, rfl⟩
abbrev main_c_3 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_4 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_5 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩

abbrev nD : Nat := 1
abbrev τ : Topo := Topo.v7x

variable {F : FTy → Type} [FloatOps F]

class Facts₀ : Prop where
  bcast_S_S2000000x128 : S_.BroadcastsInDim S2000000x128 (![] : Fin 0 → Fin S2000000x128.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S2000000x1_S2000000x3_0_1 : S2000000x1.BroadcastsInDim S2000000x3 (![0, 1] : Fin 2 → Fin S2000000x3.rank)
  bcast_S_S2048x3 : S_.BroadcastsInDim S2048x3 (![] : Fin 0 → Fin S2048x3.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x3_0_1 : S2048x1.BroadcastsInDim S2048x3 (![0, 1] : Fin 2 → Fin S2048x3.rank)
  reducesTo_S2000000x3_S2000000_d1 : S2000000x3.ReducesTo [1] S2000000
  h_S_ : 0 < S_.numel
  bcast_S_S2048x1 : S_.BroadcastsInDim S2048x1 (![] : Fin 0 → Fin S2048x1.rank)
  shapeCasts_S2048x1_S2048 : S2048x1.ShapeCasts S2048
  dot_S2000000x128_S128x128_S2000000x128_1_0_0_1_n_n_wf : DotDims.WF S2000000x128 S128x128 S2000000x128 [1] [0] [0] [1] [] []
  dot_S2000000x128_S128x1_S2000000x1_1_0_0_1_n_n_wf : DotDims.WF S2000000x128 S128x1 S2000000x1 [1] [0] [0] [1] [] []
  gather_S100_S2000000x1_S2000000_n_0_n_n_0_1_1_wf : GatherDims.WF S100 S2000000x1 S2000000 [] [0] [] [0] [] 1 ![1]
  scatter_S2048x3_S2000000x1_S2000000x3_1_0_0_1_wf : ScatterDims.WF S2048x3 S2000000x1 S2000000x3 [1] [0] [0] 1
  scatter_S2048_S2000000x1_S2000000_n_0_0_1_wf : ScatterDims.WF S2048 S2000000x1 S2000000 [] [0] [0] 1
  gather_S2048x3_S2000000x1_S2000000x3_1_0_n_n_0_1_13_wf : GatherDims.WF S2048x3 S2000000x1 S2000000x3 [1] [0] [] [0] [] 1 ![1, 3]
  scatter_S2048x1_S2000000x1_S2000000x1_1_0_0_1_wf : ScatterDims.WF S2048x1 S2000000x1 S2000000x1 [1] [0] [0] 1

variable [Facts₀]

def dot_S2000000x128_S128x128_S2000000x128_1_0_0_1_n_n : DotDims S2000000x128 S128x128 S2000000x128 where
  lhsContracting := [1]
  rhsContracting := [0]
  lhsNonContracting := [0]
  rhsNonContracting := [1]
  lhsBatch := []
  rhsBatch := []
  wf := dot_S2000000x128_S128x128_S2000000x128_1_0_0_1_n_n_wf
def dot_S2000000x128_S128x1_S2000000x1_1_0_0_1_n_n : DotDims S2000000x128 S128x1 S2000000x1 where
  lhsContracting := [1]
  rhsContracting := [0]
  lhsNonContracting := [0]
  rhsNonContracting := [1]
  lhsBatch := []
  rhsBatch := []
  wf := dot_S2000000x128_S128x1_S2000000x1_1_0_0_1_n_n_wf
def gather_S100_S2000000x1_S2000000_n_0_n_n_0_1_1 : GatherDims S100 S2000000x1 S2000000 where
  offsetDims := []
  collapsedSliceDims := [0]
  operandBatchingDims := []
  startIndicesBatchingDims := []
  startIndexMap := [0]
  indexVectorDim := 1
  sliceSizes := ![1]
  wf := gather_S100_S2000000x1_S2000000_n_0_n_n_0_1_1_wf
def scatter_S2048x3_S2000000x1_S2000000x3_1_0_0_1 : ScatterDims S2048x3 S2000000x1 S2000000x3 where
  updateWindowDims := [1]
  insertedWindowDims := [0]
  scatterDimsToOperandDims := [0]
  indexVectorDim := 1
  wf := scatter_S2048x3_S2000000x1_S2000000x3_1_0_0_1_wf
def scatter_S2048_S2000000x1_S2000000_n_0_0_1 : ScatterDims S2048 S2000000x1 S2000000 where
  updateWindowDims := []
  insertedWindowDims := [0]
  scatterDimsToOperandDims := [0]
  indexVectorDim := 1
  wf := scatter_S2048_S2000000x1_S2000000_n_0_0_1_wf
def gather_S2048x3_S2000000x1_S2000000x3_1_0_n_n_0_1_13 : GatherDims S2048x3 S2000000x1 S2000000x3 where
  offsetDims := [1]
  collapsedSliceDims := [0]
  operandBatchingDims := []
  startIndicesBatchingDims := []
  startIndexMap := [0]
  indexVectorDim := 1
  sliceSizes := ![1, 3]
  wf := gather_S2048x3_S2000000x1_S2000000x3_1_0_n_n_0_1_13_wf
def scatter_S2048x1_S2000000x1_S2000000x1_1_0_0_1 : ScatterDims S2048x1 S2000000x1 S2000000x1 where
  updateWindowDims := [1]
  insertedWindowDims := [0]
  scatterDimsToOperandDims := [0]
  indexVectorDim := 1
  wf := scatter_S2048x1_S2000000x1_S2000000x1_1_0_0_1_wf

class Facts : Prop extends Facts₀ where

variable [Facts]
-- ==== Proof.AtomMlp.lean ====
/-
  The per-atom scalar both programs compute before the shared segment reductions, on the extended reals.

  For an energy matrix `e` of `N` rows and 128 columns, weights `w1` (128 × 128) and `w2` (128 × 1), atom `r` gets
      x r = ∑ k, silu (∑ j, e[r, j] · w1[j, k]) · w2[k, 0],      silu h = h · 1 / (1 + e^(-h)).
  The inner sum is the hidden pre-activation of atom `r` in column `k`; it reads only ROW `r` of `e`, so the scalars of a
  block of consecutive rows are the scalars of the whole matrix at those rows (`atomScalar_rows`). That is all the
  tiling of the atom axis needs: no algebraic law, no finiteness — both sides are the same two nested sums over `Fin 128`.
-/
import Idealize.ShloMosaic.PureOps.Ideal
import Idealize.ShloMosaic.PureOps.IdealRules
import Idealize.ShloMosaic.Lib.ValueIdx

noncomputable section

namespace Cert.AtomMlp

open Idealize.ShloMosaic Idealize.ShloMosaic.ValueIdx

/-- `silu h = h · logistic h`, with `logistic h = 1 / (1 + e^(-h))` read on the extended reals (`⊥ ↦ 0`, `⊤ ↦ 1`). -/
def silu (h : EReal) : EReal := h * Ideal.logistic h

/-- The hidden pre-activation of atom `r` in column `k`: row `r` of `e` against column `k` of `w1`. -/
def preact {N : Nat} (e : (⟨2, ![N, 128]⟩ : Shape).Idx → EReal) (w1 : (⟨2, ![128, 128]⟩ : Shape).Idx → EReal)
    (r : Fin N) (k : Fin 128) : EReal :=
  ∑ j : Fin 128, e (ix2 r j) * w1 (ix2 j k)

/-- Atom `r`'s scalar: the activated hidden row against the single column of `w2`. -/
def atomScalar {N : Nat} (e : (⟨2, ![N, 128]⟩ : Shape).Idx → EReal) (w1 : (⟨2, ![128, 128]⟩ : Shape).Idx → EReal)
    (w2 : (⟨2, ![128, 1]⟩ : Shape).Idx → EReal) (r : Fin N) : EReal :=
  ∑ k : Fin 128, silu (preact e w1 r k) * w2 (ix2 k (0 : Fin 1))

/-- The scalars as an `[N, 1]` array. -/
def atomScalars {N : Nat} (e : (⟨2, ![N, 128]⟩ : Shape).Idx → EReal) (w1 : (⟨2, ![128, 128]⟩ : Shape).Idx → EReal)
    (w2 : (⟨2, ![128, 1]⟩ : Shape).Idx → EReal) : (⟨2, ![N, 1]⟩ : Shape).Idx → EReal :=
  fun i => atomScalar e w1 w2 (i 0)

/-- An atom's scalar depends on the energy matrix only through that atom's row: if row `p` of `b` is row `r` of `e` (and
    the weights agree entry by entry), the two scalars agree. (A block of rows of `e` therefore yields the block of the
    scalars.) -/
theorem atomScalar_rows {N M : Nat} (e : (⟨2, ![N, 128]⟩ : Shape).Idx → EReal) (b : (⟨2, ![M, 128]⟩ : Shape).Idx → EReal)
    (w1 w1' : (⟨2, ![128, 128]⟩ : Shape).Idx → EReal) (w2 w2' : (⟨2, ![128, 1]⟩ : Shape).Idx → EReal) (r : Fin N) (p : Fin M)
    (hrow : ∀ j : Fin 128, b (ix2 p j) = e (ix2 r j))
    (hw1 : ∀ j k : Fin 128, w1' (ix2 j k) = w1 (ix2 j k)) (hw2 : ∀ k : Fin 128, w2' (ix2 k (0 : Fin 1)) = w2 (ix2 k (0 : Fin 1))) :
    atomScalar b w1' w2' p = atomScalar e w1 w2 r := by
  unfold atomScalar preact
  refine Finset.sum_congr rfl fun k _ => ?_
  rw [hw2 k]
  refine congrArg (fun h => silu h * w2 (ix2 k (0 : Fin 1))) ?_
  exact Finset.sum_congr rfl fun j _ => by rw [hrow j, hw1 j k]

/-- The pattern of `1.0` denotes the real one. -/
theorem one_f32 : Ideal.ofBits .f32 0x3F800000#32 = 1 := IdealRules.sign_bit.ideal_onePat .f32

/-- jax's expansion of `silu` on the host — `h · (1 / (1 + exp (-h)))` with both ones the literal `1.0` — is `silu`:
    `logistic` IS that quotient on every extended real, by definition. -/
theorem silu_expanded (h : EReal) :
    h * Ideal.div (Ideal.ofBits .f32 0x3F800000#32) (Ideal.ofBits .f32 0x3F800000#32 + Ideal.exp (-h)) = silu h := by
  rw [one_f32]; rfl

end Cert.AtomMlp

end
-- ==== Proof.RefMlp.lean ====
/-
  The reference's per-atom scalar is the specification's.

  The reference computes `x = silu (energy · W1) · W2` on the host with jax's `silu` spelt out
  (`h · (1 / (1 + exp (-h)))`). Read at an index, each `dot_general` is a sum over its one contracted axis, the
  operations between them act element by element, and the two literal ones denote the real one; so the stage that holds
  `x` is `Cert.AtomMlp.atomScalars` of the three arguments it depends on.
-/
import proofs.«111534_j86337432584821_1_alg».proof.Proof.Gen.ReferenceIdeal.Read
import proofs.«111534_j86337432584821_1_alg».proof.Proof.AtomMlp

noncomputable section

namespace Cert.RefMlp

open Cert.ReferenceIdeal Cert.ReferenceIdeal.Read Idealize.ShloMosaic Idealize.ShloMosaic.ValueIdx Cert.AtomMlp

/-- The first `dot_general` at `(r, k)` is the hidden pre-activation of atom `r` in column `k`. -/
theorem hidden_stage (x0 : (⟨S2000000x128, .f32⟩ : BufTy).Contents (Elt Ideal)) (x2 : (⟨S128x128, .f32⟩ : BufTy).Contents (Elt Ideal))
    (r : Fin 2000000) (k : Fin 128) :
    val_main_v0 (F := Ideal) x0 x2 (ix2 r k) = preact (N := 2000000) x0 x2 r k := by
  rw [val_main_v0_apply]
  unfold preact
  refine Finset.sum_congr rfl fun j _ => ?_
  have el : lidx_main_v0 (ix2 r k) j = ix2 r j := funext fun a => Fin.ext (by
    match a with
    | ⟨0, _⟩ => rfl
    | ⟨1, _⟩ => rfl)
  have er : ridx_main_v0 (ix2 r k) j = ix2 j k := funext fun a => Fin.ext (by
    match a with
    | ⟨0, _⟩ => rfl
    | ⟨1, _⟩ => rfl)
  rw [el, er]

/-- The activated hidden value at `(r, k)`: jax's expansion of `silu` applied to the hidden pre-activation. -/
theorem activated_stage (x0 : (⟨S2000000x128, .f32⟩ : BufTy).Contents (Elt Ideal)) (x2 : (⟨S128x128, .f32⟩ : BufTy).Contents (Elt Ideal))
    (r : Fin 2000000) (k : Fin 128) :
    val_main_v1 (F := Ideal) x0 x2 (ix2 r k) = silu (preact (N := 2000000) x0 x2 r k) := by
  rw [val_main_v1_apply, val_main_call0_v5_apply, val_main_call0_v4_apply, val_main_call0_cst_0_apply,
    val_main_call0_v3_apply, val_main_call0_v2_apply, val_main_call0_cst_apply, val_main_call0_v1_apply,
    val_main_call0_v0_apply, hidden_stage]
  exact silu_expanded _

/-- The stage holding the reference's per-atom scalars is the specification's array. -/
theorem scalars_stage (x0 : (⟨S2000000x128, .f32⟩ : BufTy).Contents (Elt Ideal)) (x2 : (⟨S128x128, .f32⟩ : BufTy).Contents (Elt Ideal))
    (x3 : (⟨S128x1, .f32⟩ : BufTy).Contents (Elt Ideal)) :
    val_main_v2 (F := Ideal) x0 x2 x3 = atomScalars (N := 2000000) x0 x2 x3 := by
  funext i
  obtain ⟨r, q, rfl⟩ : ∃ (r : Fin 2000000) (q : Fin 1), i = ix2 r q := ⟨i 0, i 1, eq_ix2 i⟩
  obtain rfl : q = 0 := Subsingleton.elim _ _
  rw [val_main_v2_apply]
  unfold atomScalars atomScalar
  refine Finset.sum_congr rfl fun k _ => ?_
  have el : lidx_main_v2 (ix2 r (0 : Fin 1)) k = ix2 r k := funext fun a => Fin.ext (by
    match a with
    | ⟨0, _⟩ => rfl
    | ⟨1, _⟩ => rfl)
  have er : ridx_main_v2 (ix2 r (0 : Fin 1)) k = ix2 k (0 : Fin 1) := funext fun a => Fin.ext (by
    match a with
    | ⟨0, _⟩ => rfl
    | ⟨1, _⟩ => rfl)
  rw [el, er, activated_stage]

end Cert.RefMlp

end
-- ==== Proof.SharedTail.lean ====
/-
  What both programs do with the per-atom scalars, carried as ONE function.

  After the scalars `x` are known, the kernel's program and the reference apply the same host operations: gather the atoms'
  masses, segment-sum `mass · pos` and `mass` over the graphs, divide for the centres of mass, gather them back, take each
  atom's squared distance from its centre, multiply by `x`, and segment-sum over the graphs. None of it is opened here: it is
  named `tail`, a function of `x` and of the four arguments it reads (positions, mass table, atomic numbers, graph ids),
  and each program's result is shown to be `tail` of its own scalars.
-/
import proofs.«111534_j86337432584821_1_alg».proof.Proof.Gen.ReferenceIdeal.Read
import proofs.«111534_j86337432584821_1_alg».proof.Proof.Gen.KernelIdeal.Launch
import Idealize.ShloMosaic.Lib.StableHlo.Run
import Idealize.ShloMosaic.PureOps.Ideal

set_option maxRecDepth 16384

noncomputable section

open Idealize.ShloMosaic Idealize.ShloMosaic.TcCoe Idealize.SL.Sem Idealize.ShloMosaic.StableHlo

namespace Cert.SharedTail

section Reference

open Cert.ReferenceIdeal Cert.ReferenceIdeal.Read

variable {F : FTy → Type} [FloatOps F]

/-- The last segment sum, still as a `[2048, 1]` column: over the graphs, of each atom's scalar times its squared distance
    from its graph's centre of mass. -/
def weightedSums (x : (⟨S2000000x1, .f32⟩ : BufTy).Contents (Elt F)) (pos : (⟨S2000000x3, .f32⟩ : BufTy).Contents (Elt F)) (masses : (⟨S100, .f32⟩ : BufTy).Contents (Elt F))
    (numbers graphs : (⟨S2000000, .i32⟩ : BufTy).Contents (Elt F)) : (⟨S2048x1, .f32⟩ : BufTy).Contents (Elt F) :=
  Host.scatterAdd scatter_S2048x1_S2000000x1_S2000000x1_1_0_0_1 (val_main_v34 (F := F)) (val_main_v35 (F := F) graphs)
    (mulf x (val_main_v32 (F := F) pos masses numbers graphs))

/-- The host operations after the scalars, as a function of the scalars `x`, the positions, the mass table, the atomic
    numbers and the graph ids: the weighted segment sums, one per graph. -/
def tail (x : (⟨S2000000x1, .f32⟩ : BufTy).Contents (Elt F)) (pos : (⟨S2000000x3, .f32⟩ : BufTy).Contents (Elt F)) (masses : (⟨S100, .f32⟩ : BufTy).Contents (Elt F))
    (numbers graphs : (⟨S2000000, .i32⟩ : BufTy).Contents (Elt F)) : (⟨S2048, .f32⟩ : BufTy).Contents (Elt F) :=
  shapeCast _ (weightedSums (F := F) x pos masses numbers graphs) Cert.ReferenceIdeal.Facts₀.shapeCasts_S2048x1_S2048

/-- The reference's result is `tail` of its own scalars (its stage `%2`). -/
theorem reference_result (x0 : (⟨S2000000x128, .f32⟩ : BufTy).Contents (Elt F)) (x1 : (⟨S2000000x3, .f32⟩ : BufTy).Contents (Elt F)) (x2 : (⟨S128x128, .f32⟩ : BufTy).Contents (Elt F))
    (x3 : (⟨S128x1, .f32⟩ : BufTy).Contents (Elt F)) (x4 : (⟨S100, .f32⟩ : BufTy).Contents (Elt F)) (x5 x6 : (⟨S2000000, .i32⟩ : BufTy).Contents (Elt F)) :
    val_main_v37 (F := F) x0 x1 x2 x3 x4 x5 x6 = tail (F := F) (val_main_v2 (F := F) x0 x2 x3) x1 x4 x5 x6 := rfl

end Reference

section Kernel

open Cert.KernelIdeal Cert.KernelIdeal.Gen

set_option maxHeartbeats 4000000 in
/-- The kernel program's host lines after the region, run from ANY contents `W` of the buffers: the result buffer ends at
    `tail` of what `W` holds in the region's output array and in the four arguments the lines read. -/
theorem kernel_lines (W : Valuation τ sig (Elt Ideal)) :
    StableHlo.after hostOps1 W (Proc.devRef .tc main_v35)
      = tail (F := Ideal) (W (Proc.devRef .tc main_v0)) (W (Proc.devRef .tc main_arg1)) (W (Proc.devRef .tc main_arg4))
          (W (Proc.devRef .tc main_arg5)) (W (Proc.devRef .tc main_arg6)) := by
  after_results_simp
  rfl

end Kernel

end Cert.SharedTail

end
-- ==== Proof.KerMlp.lean ====
/-
  What the kernel body stores, index by index.

  On a block of 16000 energy rows the body computes `matmul (matmul e w1 0 |> silu) w2 0` — the two `tpu.matmul`s into a zero
  accumulator are plain sums over their one contracted axis, the change of format in front of the first is the identity on
  the extended reals, and `tpu.logistic` is `1 / (1 + e^(-h))`. So the stored `[16000, 1]` vector is the specification's
  `atomScalars` of the block and the two weight matrices.
-/
import proofs.«111534_j86337432584821_1_alg».proof.Proof.Gen.KernelIdeal.Skeleton
import proofs.«111534_j86337432584821_1_alg».proof.Proof.AtomMlp
import Idealize.ShloMosaic.PureOps.Ideal.Laws
import Idealize.ShloMosaic.Lib.ValueIdx

noncomputable section

namespace Cert.KerMlp

open Cert.KernelIdeal Cert.KernelIdeal.Gen Idealize.ShloMosaic Idealize.ShloMosaic.ValueIdx Cert.AtomMlp

/-! ## The operand indices of the two products, coordinate by coordinate

At output index `i` and contraction position `q` a plain product reads its left operand at (row of `i`, `q`) and its right
operand at (`q`, column of `i`). -/

theorem first_lhs_row (i : S16000x128.Idx) (q : dot_S16000x128_S128x128_S16000x128_1_0_0_1_n_n.contr.Idx) : (dot_S16000x128_S128x128_S16000x128_1_0_0_1_n_n.lhsIdx i q 0).val = (i 0).val := by
  unfold DotDims.lhsIdx
  rw [dif_neg (show ¬(0 : Fin S16000x128.rank) ∈ dot_S16000x128_S128x128_S16000x128_1_0_0_1_n_n.lhsBatch by decide), dif_pos (show (0 : Fin S16000x128.rank) ∈ dot_S16000x128_S128x128_S16000x128_1_0_0_1_n_n.lhsNonContracting by decide)]
  rfl
theorem first_lhs_col (i : S16000x128.Idx) (q : dot_S16000x128_S128x128_S16000x128_1_0_0_1_n_n.contr.Idx) : (dot_S16000x128_S128x128_S16000x128_1_0_0_1_n_n.lhsIdx i q 1).val = (q ⟨0, by decide⟩).val :=
  dot_S16000x128_S128x128_S16000x128_1_0_0_1_n_n.lhsIdx_val_of_single rfl i q
theorem first_rhs_row (i : S16000x128.Idx) (q : dot_S16000x128_S128x128_S16000x128_1_0_0_1_n_n.contr.Idx) : (dot_S16000x128_S128x128_S16000x128_1_0_0_1_n_n.rhsIdx i q 0).val = (q ⟨0, by decide⟩).val :=
  dot_S16000x128_S128x128_S16000x128_1_0_0_1_n_n.rhsIdx_val_of_single rfl i q
theorem first_rhs_col (i : S16000x128.Idx) (q : dot_S16000x128_S128x128_S16000x128_1_0_0_1_n_n.contr.Idx) : (dot_S16000x128_S128x128_S16000x128_1_0_0_1_n_n.rhsIdx i q 1).val = (i 1).val := by
  unfold DotDims.rhsIdx
  rw [dif_neg (show ¬(1 : Fin S128x128.rank) ∈ dot_S16000x128_S128x128_S16000x128_1_0_0_1_n_n.rhsBatch by decide), dif_pos (show (1 : Fin S128x128.rank) ∈ dot_S16000x128_S128x128_S16000x128_1_0_0_1_n_n.rhsNonContracting by decide)]
  rfl

theorem second_lhs_row (i : S16000x1.Idx) (q : dot_S16000x128_S128x1_S16000x1_1_0_0_1_n_n.contr.Idx) : (dot_S16000x128_S128x1_S16000x1_1_0_0_1_n_n.lhsIdx i q 0).val = (i 0).val := by
  unfold DotDims.lhsIdx
  rw [dif_neg (show ¬(0 : Fin S16000x128.rank) ∈ dot_S16000x128_S128x1_S16000x1_1_0_0_1_n_n.lhsBatch by decide), dif_pos (show (0 : Fin S16000x128.rank) ∈ dot_S16000x128_S128x1_S16000x1_1_0_0_1_n_n.lhsNonContracting by decide)]
  rfl
theorem second_lhs_col (i : S16000x1.Idx) (q : dot_S16000x128_S128x1_S16000x1_1_0_0_1_n_n.contr.Idx) : (dot_S16000x128_S128x1_S16000x1_1_0_0_1_n_n.lhsIdx i q 1).val = (q ⟨0, by decide⟩).val :=
  dot_S16000x128_S128x1_S16000x1_1_0_0_1_n_n.lhsIdx_val_of_single rfl i q
theorem second_rhs_row (i : S16000x1.Idx) (q : dot_S16000x128_S128x1_S16000x1_1_0_0_1_n_n.contr.Idx) : (dot_S16000x128_S128x1_S16000x1_1_0_0_1_n_n.rhsIdx i q 0).val = (q ⟨0, by decide⟩).val :=
  dot_S16000x128_S128x1_S16000x1_1_0_0_1_n_n.rhsIdx_val_of_single rfl i q
theorem second_rhs_col (i : S16000x1.Idx) (q : dot_S16000x128_S128x1_S16000x1_1_0_0_1_n_n.contr.Idx) : (dot_S16000x128_S128x1_S16000x1_1_0_0_1_n_n.rhsIdx i q 1).val = (i 1).val := by
  unfold DotDims.rhsIdx
  rw [dif_neg (show ¬(1 : Fin S128x1.rank) ∈ dot_S16000x128_S128x1_S16000x1_1_0_0_1_n_n.rhsBatch by decide), dif_pos (show (1 : Fin S128x1.rank) ∈ dot_S16000x128_S128x1_S16000x1_1_0_0_1_n_n.rhsNonContracting by decide)]
  rfl

/-! ## The two products as sums over `Fin 128` -/

/-- The first product, `[16000, 128] · [128, 128]` into zero, at `(p, k)`: row `p` of the left against column `k` of the right. -/
theorem first_product (a : FVec Ideal S16000x128 .bf16) (b : FVec Ideal S128x128 .bf16) (p : Fin 16000) (k : Fin 128) :
    matmul dot_S16000x128_S128x128_S16000x128_1_0_0_1_n_n none a b (constant (F := Ideal) S16000x128 .f32 0x00000000#32) (ix2 p k)
      = ∑ j : Fin 128, a (ix2 p j) * b (ix2 j k) := by
  refine (Ideal.matmul_constant_zero_apply dot_S16000x128_S128x128_S16000x128_1_0_0_1_n_n none a b (ix2 p k)).trans ?_
  rw [← Equiv.sum_comp (contrEquiv1 dot_S16000x128_S128x128_S16000x128_1_0_0_1_n_n 128 rfl rfl).symm]
  refine Finset.sum_congr rfl fun j _ => ?_
  have hj := contrEquiv1_symm_val dot_S16000x128_S128x128_S16000x128_1_0_0_1_n_n 128 rfl rfl j
  have el : dot_S16000x128_S128x128_S16000x128_1_0_0_1_n_n.lhsIdx (ix2 p k) ((contrEquiv1 dot_S16000x128_S128x128_S16000x128_1_0_0_1_n_n 128 rfl rfl).symm j) = ix2 p j := funext fun x => Fin.ext (by
    match x with
    | ⟨0, _⟩ => exact first_lhs_row _ _
    | ⟨1, _⟩ => exact (first_lhs_col _ _).trans hj)
  have er : dot_S16000x128_S128x128_S16000x128_1_0_0_1_n_n.rhsIdx (ix2 p k) ((contrEquiv1 dot_S16000x128_S128x128_S16000x128_1_0_0_1_n_n 128 rfl rfl).symm j) = ix2 j k := funext fun x => Fin.ext (by
    match x with
    | ⟨0, _⟩ => exact (first_rhs_row _ _).trans hj
    | ⟨1, _⟩ => exact first_rhs_col _ _)
  rw [el, er]

/-- The second product, `[16000, 128] · [128, 1]` into zero, at `(p, 0)`: row `p` of the left against the one column. -/
theorem second_product (a : FVec Ideal S16000x128 .f32) (b : FVec Ideal S128x1 .f32) (p : Fin 16000) :
    matmul dot_S16000x128_S128x1_S16000x1_1_0_0_1_n_n none a b (constant (F := Ideal) S16000x1 .f32 0x00000000#32) (ix2 p (0 : Fin 1))
      = ∑ k : Fin 128, a (ix2 p k) * b (ix2 k (0 : Fin 1)) := by
  refine (Ideal.matmul_constant_zero_apply dot_S16000x128_S128x1_S16000x1_1_0_0_1_n_n none a b (ix2 p (0 : Fin 1))).trans ?_
  rw [← Equiv.sum_comp (contrEquiv1 dot_S16000x128_S128x1_S16000x1_1_0_0_1_n_n 128 rfl rfl).symm]
  refine Finset.sum_congr rfl fun k _ => ?_
  have hk := contrEquiv1_symm_val dot_S16000x128_S128x1_S16000x1_1_0_0_1_n_n 128 rfl rfl k
  have el : dot_S16000x128_S128x1_S16000x1_1_0_0_1_n_n.lhsIdx (ix2 p (0 : Fin 1)) ((contrEquiv1 dot_S16000x128_S128x1_S16000x1_1_0_0_1_n_n 128 rfl rfl).symm k) = ix2 p k := funext fun x => Fin.ext (by
    match x with
    | ⟨0, _⟩ => exact second_lhs_row _ _
    | ⟨1, _⟩ => exact (second_lhs_col _ _).trans hk)
  have er : dot_S16000x128_S128x1_S16000x1_1_0_0_1_n_n.rhsIdx (ix2 p (0 : Fin 1)) ((contrEquiv1 dot_S16000x128_S128x1_S16000x1_1_0_0_1_n_n 128 rfl rfl).symm k) = ix2 k (0 : Fin 1) := funext fun x => Fin.ext (by
    match x with
    | ⟨0, _⟩ => exact (second_rhs_row _ _).trans hk
    | ⟨1, _⟩ => exact second_rhs_col _ _)
  rw [el, er]

/-! ## The store -/

/-- THE BODY'S STORE: of a block `e` of 16000 energy rows and the two weight matrices, the per-atom scalars of the block. -/
theorem stored (e : Vec Ideal S16000x128 .f32) (w1 : Vec Ideal S128x128 .f32) (w2 : Vec Ideal S128x1 .f32) :
    k0_pay1 (F := Ideal) e w1 w2 = atomScalars (N := 16000) e w1 w2 := by
  funext y
  obtain ⟨p, q, rfl⟩ : ∃ (p : Fin 16000) (q : Fin 1), y = ix2 p q := ⟨y 0, y 1, eq_ix2 y⟩
  obtain rfl : q = 0 := Subsingleton.elim _ _
  unfold k0_pay1
  refine (second_product _ _ p).trans ?_
  unfold atomScalars atomScalar
  refine Finset.sum_congr rfl fun k _ => ?_
  refine congrArg (· * w2 (ix2 k (0 : Fin 1))) ?_
  -- the activated hidden value at (p, k): silu of the first product there; the change of format reads through
  exact congrArg silu (first_product (truncf .bf16 e bitsLt_bf16_f32) (truncf .bf16 w1 bitsLt_bf16_f32) p k)

end Cert.KerMlp

end
-- ==== Proof.KerBlocks.lean ====
/-
  From blocks to the array: after the region, the kernel's output array holds the per-atom scalars of the whole inputs.

  Grid point `t` (of 125) reads rows `16000·t … 16000·t + 15999` of the energy matrix and both weight matrices whole, and writes
  back rows `16000·t …` of the `[2000000, 1]` output. An atom's scalar reads the energy matrix only through that atom's row,
  so what point `t` writes is block `t` of ONE whole-array function, `scalars`; the 125 blocks tile the output (row `r` lies in
  block `r / 16000`), hence the array ends holding `scalars`.
-/
import proofs.«111534_j86337432584821_1_alg».proof.Proof.Gen.KernelIdeal.Frame
import proofs.«111534_j86337432584821_1_alg».proof.Proof.KerMlp
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KerBlocks

open Cert.KernelIdeal Cert.KernelIdeal.Gen Idealize.ShloMosaic.ValueIdx Cert.AtomMlp

variable (m : (ℓ : Loc nD τ sig) → Buf (Elt Ideal) ℓ)

theorem offsets_zero : (![0, 0] : Fin 2 → Nat) = fun _ => 0 := funext fun a => by fin_cases a <;> rfl

/-- The per-atom scalars of the whole argument arrays, as the region finds them. -/
abbrev scalars (c : Dev nD) : Buf (Elt Ideal) ((c : Thread nD τ).loc main_v0) :=
  atomScalars (N := 2000000) (V m c main_arg0) (V m c main_arg2) (V m c main_arg3)

/-- The printed index maps over the grid: the energy window and the output window sit at block row `t`, the two weight
    windows at block (0, 0). -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Scalars of a block of rows, stated over plain vectors: if row `y 0` of the block `b0` is row `i 0` of the matrix `E`,
    and the weight blocks are the weight matrices, the block's scalar at `y` is the matrix's at `i`. -/
theorem block_scalar (E : S2000000x128.Idx → EReal) (W1 : S128x128.Idx → EReal) (W2 : S128x1.Idx → EReal)
    (b0 : Vec Ideal S16000x128 .f32) (b1 : Vec Ideal S128x128 .f32) (b2 : Vec Ideal S128x1 .f32)
    (y : S16000x1.Idx) (i : S2000000x1.Idx)
    (h0 : ∀ j : Fin 128, b0 (ix2 (y 0) j) = E (ix2 (i 0) j))
    (h1 : ∀ j k : Fin 128, b1 (ix2 j k) = W1 (ix2 j k)) (h2 : ∀ k : Fin 128, b2 (ix2 k (0 : Fin 1)) = W2 (ix2 k (0 : Fin 1))) :
    atomScalars (N := 16000) b0 b1 b2 y = atomScalars (N := 2000000) E W1 W2 i :=
  atomScalar_rows E b0 W1 b1 W2 b2 (i 0) (y 0) h0 h1 h2

/-- WHAT POINT `t` WRITES BACK is block `t` of `scalars`. -/
theorem flushed_eq (c : Dev nD) (t : Fin cfg0.N) :
    (dats m 0 c).flushed 3 t = ((cfg0.win 3).blk t).view.read (Elt Ideal) (scalars m c) := by
  show (cfg0.win 3).cut (grid0.coords t) ((dats m 0 c).after 3 t) = _
  rw [after0_3]
  unfold out0_3
  rw [View.canon_unit_zero offsets_zero]
  simp only [View.ld_unit_zero (S := S16000x128) offsets_zero, View.ld_unit_zero (S := S128x128) offsets_zero,
    View.ld_unit_zero (S := S128x1) offsets_zero]
  rw [KerMlp.stored]
  obtain ⟨e00, e01, e10, e11, e20, e21, e30, e31⟩ := block_indices t
  funext y
  refine block_scalar _ _ _ _ _ _ y (((cfg0.win 3).blk t).view.emb y) (fun j => ?_) (fun j k => ?_) (fun k => ?_)
  · show V m c main_arg0 (((cfg0.win 0).blk t).view.emb (ix2 (y 0) j)) = V m c main_arg0 (ix2 ((((cfg0.win 3).blk t).view.emb y) 0) j)
    refine congrArg (V m c main_arg0) (funext fun a => Fin.ext ?_)
    match a with
    | ⟨0, _⟩ => show win0_0.index t (0 : Fin 2) * 16000 + 1 * (y 0).val = win0_3.index t (0 : Fin 2) * 16000 + 1 * (y 0).val; omega
    | ⟨1, _⟩ => show win0_0.index t (1 : Fin 2) * 128 + 1 * j.val = j.val; omega
  · show V m c main_arg2 (((cfg0.win 1).blk t).view.emb (ix2 j k)) = V m c main_arg2 (ix2 j k)
    refine congrArg (V m c main_arg2) (funext fun a => Fin.ext ?_)
    match a with
    | ⟨0, _⟩ => show win0_1.index t (0 : Fin 2) * 128 + 1 * j.val = j.val; omega
    | ⟨1, _⟩ => show win0_1.index t (1 : Fin 2) * 128 + 1 * k.val = k.val; omega
  · show V m c main_arg3 (((cfg0.win 2).blk t).view.emb (ix2 k (0 : Fin 1))) = V m c main_arg3 (ix2 k (0 : Fin 1))
    refine congrArg (V m c main_arg3) (funext fun a => Fin.ext ?_)
    match a with
    | ⟨0, _⟩ => show win0_2.index t (0 : Fin 2) * 128 + 1 * k.val = k.val; omega
    | ⟨1, _⟩ => show win0_2.index t (1 : Fin 2) * 1 + 1 * 0 = 0; omega

/-- An index of the output array is in point `t`'s block iff each coordinate is in the block's range on its axis. -/
theorem mem_block (t : Fin cfg0.N) (i : S2000000x1.Idx) :
    i ∈ ((cfg0.win 3).blk t).view.set ↔ ∀ a : Fin 2, win0_3.index t a * S16000x1.size a ≤ (i a).val ∧ (i a).val < win0_3.index t a * S16000x1.size a + S16000x1.size a := by
  show i ∈ ((View.whole main_v0).slice (win0_3.rect t)).set ↔ _
  rw [View.set_slice_whole, Rect.mem_set_unit]
  exact Iff.rfl

/-- The blocks tile the output: row `r` lies in the block of point `r / 16000`. -/
theorem covered (i : S2000000x1.Idx) : ∃ t : Fin cfg0.N, (cfg0.win 3).flush t = true ∧ i ∈ ((cfg0.win 3).blk t).view.set := by
  have hi0 : (i 0).val < 2000000 := (i 0).isLt
  have hi1 : (i 1).val < 1 := (i 1).isLt
  have hN : cfg0.N = 125 := N_0
  obtain ⟨t, ht⟩ : ∃ t : Fin cfg0.N, t.val = (i 0).val / 16000 := ⟨⟨(i 0).val / 16000, by rw [hN]; omega⟩, rfl⟩
  obtain ⟨-, -, -, -, -, -, e30, e31⟩ := block_indices t
  refine ⟨t, flush0_3 t, ?_⟩
  rw [mem_block]
  intro a
  match a with
  | ⟨0, _⟩ => show win0_3.index t (0 : Fin 2) * 16000 ≤ (i 0).val ∧ (i 0).val < win0_3.index t (0 : Fin 2) * 16000 + 16000; omega
  | ⟨1, _⟩ => show win0_3.index t (1 : Fin 2) * 1 ≤ (i 1).val ∧ (i 1).val < win0_3.index t (1 : Fin 2) * 1 + 1; omega

/-- THE OUTPUT ARRAY after the region: the per-atom scalars of the whole argument arrays. -/
theorem final (c : Dev nD) : (dats m 0 c).arrAt 3 cfg0.N = scalars m c :=
  (dats m 0 c).arrAt_eq_of_cover 3 (scalars m c) (fun t _ => flushed_eq m c t) (fun i => covered i)

end Cert.KerBlocks

end
-- ==== Proof.KerRun.lean ====
/-
  The idealized kernel program's run, read: its result is `tail` of the per-atom scalars of its arguments.

  The generated frame run leaves the region's output array at what the grid points wrote (the scalars: the blocks tile it)
  and every other buffer as the host lines after the region leave it, run from the region's arrays. Those lines read the
  output array and four arguments the region does not touch; so the result buffer ends at `tail` of the scalars and of those
  arguments as launched.
-/
import proofs.«111534_j86337432584821_1_alg».proof.Proof.Gen.KernelIdeal.Frame
import proofs.«111534_j86337432584821_1_alg».proof.Proof.KerBlocks
import proofs.«111534_j86337432584821_1_alg».proof.Proof.SharedTail

set_option maxRecDepth 16384

noncomputable section

open Idealize.ShloMosaic Idealize.ShloMosaic.TcCoe Idealize.SL.Sem
open Idealize.ShloMosaic.Pipeline (Dat)

namespace Cert.KerRun

open Cert.KernelIdeal Cert.KernelIdeal.Gen

variable (m : (ℓ : Loc nD τ sig) → Buf (Elt Ideal) ℓ) (ρ : Dev nD → PrngReg)

/-- The lines after the region find the region's output array holding the per-atom scalars. -/
theorem found_scalars (c : Dev nD) :
    Pipeline.withArrays (cfgs 0).spec c (V0 m c) (fun w => (dats m 0 c).arrAt w (cfgs 0).N) (Proc.devRef .tc main_v0)
      = KerBlocks.scalars m c :=
  (Pipeline.withArrays_arr spec0 launch0.win.arr_inj c _ _ 3).trans (KerBlocks.final m c)

/-- The lines after the region find `main_arg1` as launched: the region stages no window on it. -/
theorem found_main_arg1 (c : Dev nD) :
    Pipeline.withArrays (cfgs 0).spec c (V0 m c) (fun w => (dats m 0 c).arrAt w (cfgs 0).N) (Proc.devRef .tc main_arg1)
      = m ((c.tc : Thread nD τ).loc main_arg1) :=
  (Pipeline.withArrays_of_ne _ c (V0 m c) _ main_arg1 (by exact (by decide : ∀ w, Pipeline.arrRef spec0 w ≠ main_arg1))).trans (V_main_arg1 m c)

/-- The lines after the region find `main_arg4` as launched: the region stages no window on it. -/
theorem found_main_arg4 (c : Dev nD) :
    Pipeline.withArrays (cfgs 0).spec c (V0 m c) (fun w => (dats m 0 c).arrAt w (cfgs 0).N) (Proc.devRef .tc main_arg4)
      = m ((c.tc : Thread nD τ).loc main_arg4) :=
  (Pipeline.withArrays_of_ne _ c (V0 m c) _ main_arg4 (by exact (by decide : ∀ w, Pipeline.arrRef spec0 w ≠ main_arg4))).trans (V_main_arg4 m c)

/-- The lines after the region find `main_arg5` as launched: the region stages no window on it. -/
theorem found_main_arg5 (c : Dev nD) :
    Pipeline.withArrays (cfgs 0).spec c (V0 m c) (fun w => (dats m 0 c).arrAt w (cfgs 0).N) (Proc.devRef .tc main_arg5)
      = m ((c.tc : Thread nD τ).loc main_arg5) :=
  (Pipeline.withArrays_of_ne _ c (V0 m c) _ main_arg5 (by exact (by decide : ∀ w, Pipeline.arrRef spec0 w ≠ main_arg5))).trans (V_main_arg5 m c)

/-- The lines after the region find `main_arg6` as launched: the region stages no window on it. -/
theorem found_main_arg6 (c : Dev nD) :
    Pipeline.withArrays (cfgs 0).spec c (V0 m c) (fun w => (dats m 0 c).arrAt w (cfgs 0).N) (Proc.devRef .tc main_arg6)
      = m ((c.tc : Thread nD τ).loc main_arg6) :=
  (Pipeline.withArrays_of_ne _ c (V0 m c) _ main_arg6 (by exact (by decide : ∀ w, Pipeline.arrRef spec0 w ≠ main_arg6))).trans (V_main_arg6 m c)

/-- What the kernel program returns: `tail` of the scalars and of the positions, the mass table, the atomic numbers and
    the graph ids as launched. -/
abbrev result (c : Dev nD) : Buf (Elt Ideal) ((c.tc : Thread nD τ).loc main_v35) :=
  SharedTail.tail (F := Ideal) (KerBlocks.scalars m c) (m ((c.tc : Thread nD τ).loc main_arg1)) (m ((c.tc : Thread nD τ).loc main_arg4)) (m ((c.tc : Thread nD τ).loc main_arg5)) (m ((c.tc : Thread nD τ).loc main_arg6))

/-- The result buffer after the lines that follow the region. -/
theorem result_eq (c : Dev nD) :
    Pipeline.afterTail₀ cfgs (dats m) 0 (V0 m) [hostOps1] c main_v35 = result m c := by
  unfold Pipeline.afterTail₀
  show StableHlo.after hostOps1 _ (Proc.devRef .tc main_v35) = _
  rw [SharedTail.kernel_lines, found_scalars, found_main_arg1, found_main_arg4, found_main_arg5, found_main_arg6]

/-- THE RUN, READ: every weakly fair execution of the idealized kernel program terminates with the result at `result` and
    the arguments unchanged. -/
theorem run : θ_run defs (onTc (τ := τ) (main (F := Ideal))) ⟨m, fun _ => 0, ρ⟩ (fun r => ∀ c : Dev nD,
      r.2.mem ((c.tc : Thread nD τ).loc main_v35) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_v35 (Pipeline.mem_restRefs_of main_v35 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KerRun

end
-- ==== Proof.lean ====
/-
  The proof of `Cert.Claim`: the per-atom MLP kernel `x = silu (energy · W1) · W2`, tiled over the atoms, followed by the
  segment reductions on the host, against the same computation written in jnp.

  On the extended reals the two programs compute ONE function. Up to the per-atom scalars `x` they differ only in
  arrangement: the kernel works on blocks of 16000 atoms with its first product's operands passed through a narrower format
  (the identity on the extended reals) and `tpu.logistic`, the reference on all atoms at once with `silu` spelt as
  `h · (1 / (1 + exp (-h)))`; an atom's scalar reads the energy matrix only through that atom's row, so the blocks' scalars
  are the whole matrix's (Proof/AtomMlp.lean the function, Proof/KerMlp.lean the body's store, Proof/KerBlocks.lean the
  output array, Proof/RefMlp.lean the reference's stage). After `x` both apply the same host operations, carried unopened
  as one function `tail` (Proof/SharedTail.lean), and Proof/KerRun.lean reads the kernel program's run. No algebraic law is
  needed, so the precondition is never opened. The three frames are the generated ones (the reference's is its generated
  run with the result dropped); the idealization rewrote nothing, so `preserves` is trivial.
-/
import proofs.«111534_j86337432584821_1_alg».proof.Defs
import proofs.«111534_j86337432584821_1_alg».proof.Proof.Gen.Kernel
import proofs.«111534_j86337432584821_1_alg».proof.Proof.Gen.Kernel.Skeleton
import proofs.«111534_j86337432584821_1_alg».proof.Proof.Gen.Kernel.Launch
import proofs.«111534_j86337432584821_1_alg».proof.Proof.Gen.Kernel.Points
import proofs.«111534_j86337432584821_1_alg».proof.Proof.Gen.Kernel.Frame
import proofs.«111534_j86337432584821_1_alg».proof.Proof.Gen.KernelIdeal
import proofs.«111534_j86337432584821_1_alg».proof.Proof.Gen.KernelIdeal.Skeleton
import proofs.«111534_j86337432584821_1_alg».proof.Proof.Gen.KernelIdeal.Launch
import proofs.«111534_j86337432584821_1_alg».proof.Proof.Gen.KernelIdeal.Points
import proofs.«111534_j86337432584821_1_alg».proof.Proof.Gen.KernelIdeal.Frame
import proofs.«111534_j86337432584821_1_alg».proof.Proof.Gen.ReferenceIdeal
import proofs.«111534_j86337432584821_1_alg».proof.Proof.Gen.Pre_finite_inputs
import proofs.«111534_j86337432584821_1_alg».proof.Proof.Gen.ReferenceIdeal.Run
import proofs.«111534_j86337432584821_1_alg».proof.Proof.Gen.ReferenceIdeal.Read
import proofs.«111534_j86337432584821_1_alg».proof.Proof.RefMlp
import proofs.«111534_j86337432584821_1_alg».proof.Proof.SharedTail
import proofs.«111534_j86337432584821_1_alg».proof.Proof.KerRun
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does the idealized one. -/
theorem frame_kernelIdeal : Cert.frame_KernelIdeal := fun m ρ _ => Cert.KernelIdeal.Gen.frame m ρ

/-- The reference runs and keeps its arguments: its run, read, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end at `tail` of the per-atom scalars of the arguments:
    the kernel program by its run read (`KerRun.run`), the reference by its generated run, whose result is `tail` of its
    scalars stage (`SharedTail.reference_result`), which is the specification's array (`RefMlp.scalars_stage`). -/
theorem algebraic : Cert.algebraic_KernelIdeal_ReferenceIdeal := by
  intro m ρ m' ρ' _ hagree
  refine ⟨fun c => Cert.KerRun.result m c, Cert.KerRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, Cert.SharedTail.reference_result, Cert.RefMlp.scalars_stage,
    (hagree c).1, (hagree c).2.1, (hagree c).2.2.1, (hagree c).2.2.2.1, (hagree c).2.2.2.2.1, (hagree c).2.2.2.2.2.1,
    (hagree c).2.2.2.2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
